-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩
abbrev S100000x64 : Shape := ⟨2, ![100000, 64]⟩
abbrev S4000x64 : Shape := ⟨2, ![4000, 64]⟩
abbrev S1700000x64 : Shape := ⟨2, ![1700000, 64]⟩
abbrev S1x64 : Shape := ⟨2, ![1, 64]⟩

abbrev nBuf : Space → Nat
  | .hbm => 117
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x64, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x64, .f32⟩
  | .hbm, ⟨107, _⟩ => ⟨S1700000x1, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x64, .f32⟩
  | .local _ .vmem, ⟨13, _⟩ => ⟨S4000x64, .f32⟩
  | .local _ .vmem, ⟨14, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x64, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x64, .f32⟩
  | .hbm, ⟨107, _⟩ => ⟨S1700000x1, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with the final contents of EVERY buffer named.

  The program is eleven segments: stretches of host operations and three launches of the row-blocked matrix
  product. Running them in order from the launch memory, the buffers pass through the contents `W0, W1, …, W11`
  (a host stretch rewrites the buffers its operations write; a launch rewrites its output array with what its
  grid points write back). Every weakly fair execution terminates without a fault, and at the end every
  buffer that is not private to a launch holds its `W11` contents. In particular the result buffer holds
  `W11` at the result, and the nine argument arrays hold what they were launched with.
-/
import proofs.«143600_j81166291959925_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer outside the launches' private
    staging at its contents after the last segment. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The run with the result buffer and the nine arguments named: the result ends at the last boundary's
    contents of its buffer, each argument as launched. -/
theorem run : θ_run defs (onTc (τ := τ) (main (F := F))) ⟨m, fun _ => 0, ρ⟩ (fun r => ∀ c : Dev nD,
      r.2.mem ((c.tc : Thread nD τ).loc main_v84) = W11 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v84 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)
    (run_all m ρ)

end Cert.KernelIdeal.Whole

end
-- ==== Proof.LibPlainDot.lean ====
/-
  A matrix product "rows by columns" read at an index, at the ideal instance.

  For dimension numbers that contract the left operand's second axis with the right operand's first one and
  have no batch axis — an `M×K` matrix times a `K×N` matrix —, the element `(r, c)` of the product is
  `∑ k : Fin K, A (r, k) * B (k, c)`:
  * for the host's `dot_general` (no accumulator), and
  * for the matrix unit's `matmul` into the all-zero accumulator.
  Both are the same sum over the ONE coordinate `k` of the contracted axis, so a product computed in row
  blocks and a product computed whole agree element by element. General in `M`, `K`, `N`, the dimension-number
  record (any record whose six lists are the plain ones) and the operands' float formats.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract the left operand's axis 1 with the right operand's
    axis 0; the result's axes are the left operand's axis 0, then the right operand's axis 1; no batch axis. -/
structure Plain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The left operand's row coordinate is the result's row coordinate. -/
theorem lhs_row (d : DotDims ⟨2, ![M, K]⟩ ⟨2, ![K, N]⟩ ⟨2, ![M, N]⟩) (P : Plain d)
    (j : (⟨2, ![M, N]⟩ : Shape).Idx) (q : d.contr.Idx) : (d.lhsIdx j q 0).val = (j 0).val := by
  unfold DotDims.lhsIdx
  rw [dif_neg (show ¬ (0 : Fin (⟨2, ![M, K]⟩ : Shape).rank) ∈ d.lhsBatch by rw [P.lb]; simp),
    dif_pos (show (0 : Fin (⟨2, ![M, K]⟩ : Shape).rank) ∈ d.lhsNonContracting by rw [P.ln]; simp)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [P.lb, P.ln])

/-- The right operand's column coordinate is the result's column coordinate. -/
theorem rhs_col (d : DotDims ⟨2, ![M, K]⟩ ⟨2, ![K, N]⟩ ⟨2, ![M, N]⟩) (P : Plain d)
    (j : (⟨2, ![M, N]⟩ : Shape).Idx) (q : d.contr.Idx) : (d.rhsIdx j q 1).val = (j 1).val := by
  unfold DotDims.rhsIdx
  rw [dif_neg (show ¬ (1 : Fin (⟨2, ![K, N]⟩ : Shape).rank) ∈ d.rhsBatch by rw [P.rb]; simp),
    dif_pos (show (1 : Fin (⟨2, ![K, N]⟩ : Shape).rank) ∈ d.rhsNonContracting by rw [P.rn]; simp)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [P.lb, P.ln, P.rn])

/-- The left operand is read at (row of the result, the contracted coordinate). -/
theorem lhsIdx_eq (d : DotDims ⟨2, ![M, K]⟩ ⟨2, ![K, N]⟩ ⟨2, ![M, N]⟩) (P : Plain d)
    (hr : d.contr.rank = 1) (hs : d.contr.size ⟨0, by omega⟩ = K)
    (j : (⟨2, ![M, N]⟩ : Shape).Idx) (k : Fin K) :
    d.lhsIdx j ((contrEquiv1 d K hr hs).symm k) = ix2 (j 0) k := by
  have hk := contrEquiv1_symm_val d K hr hs k
  funext a
  apply Fin.ext
  match a with
  | ⟨0, _⟩ => exact lhs_row d P j _
  | ⟨1, _⟩ => exact (d.lhsIdx_val_of_single P.lc j _).trans hk

/-- The right operand is read at (the contracted coordinate, column of the result). -/
theorem rhsIdx_eq (d : DotDims ⟨2, ![M, K]⟩ ⟨2, ![K, N]⟩ ⟨2, ![M, N]⟩) (P : Plain d)
    (hr : d.contr.rank = 1) (hs : d.contr.size ⟨0, by omega⟩ = K)
    (j : (⟨2, ![M, N]⟩ : Shape).Idx) (k : Fin K) :
    d.rhsIdx j ((contrEquiv1 d K hr hs).symm k) = ix2 k (j 1) := by
  have hk := contrEquiv1_symm_val d K hr hs k
  funext a
  apply Fin.ext
  match a with
  | ⟨0, _⟩ => exact (d.rhsIdx_val_of_single P.rc j _).trans hk
  | ⟨1, _⟩ => exact rhs_col d P j _

/-- The sum over the contraction index, re-indexed by the contracted axis's one coordinate. -/
theorem sum_contr (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (A : FVec Ideal ⟨2, ![M, K]⟩ φ₁) (B : FVec Ideal ⟨2, ![K, N]⟩ φ₂)
    (j : (⟨2, ![M, N]⟩ : Shape).Idx) :
    (∑ q : d.contr.Idx, A (d.lhsIdx j q) * B (d.rhsIdx j q)) = ∑ k : Fin K, A (ix2 (j 0) k) * B (ix2 k (j 1)) := by
  rw [← Equiv.sum_comp (contrEquiv1 d K hr hs).symm]
  refine Finset.sum_congr rfl fun k _ => ?_
  rw [lhsIdx_eq d P hr hs j k, rhsIdx_eq d P hr hs j k]
  rfl

/-- The host's product at an index: the sum over the contracted coordinate. -/
theorem dotGeneral_apply (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral d prec sched A B j = ∑ k : Fin K, A (ix2 (j 0) k) * B (ix2 k (j 1)) := by
  rw [Ideal.dotGeneral_apply]
  exact sum_contr d P hr hs A B j

/-- The matrix unit's product into the zero accumulator at an index: the same sum. -/
theorem matmul_zero_apply (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (prec : Option ContractPrecision)
    (A : FVec Ideal ⟨2, ![M, K]⟩ φ₁) (B : FVec Ideal ⟨2, ![K, N]⟩ φ₂) (j : (⟨2, ![M, N]⟩ : Shape).Idx) :
    FloatOps.matmul d prec A B (constant ⟨2, ![M, N]⟩ .f32 0x00000000#32) j
      = ∑ k : Fin K, A (ix2 (j 0) k) * B (ix2 k (j 1)) := by
  rw [Ideal.matmul_constant_zero_apply]
  exact sum_contr d P hr hs A B j

end PlainDot

end
-- ==== Proof.Products.lean ====
/-
  The two whole-array matrix products of the graph network, as functions of ANY two operands, and their
  elements at the ideal instance.

  `prodHidden A B` is a `100000×128` node-feature matrix times a `128×128` weight matrix and `prodOut A B` a
  `100000×128` matrix times a `128×64` one, each the host's `dot_general` contracting the feature axis. At the
  ideal instance the element `(r, c)` of either is `∑ k : Fin 128, A (r, k) * B (k, c)`: row `r` of the product
  depends on row `r` of `A` only, which is why computing the product 4000 rows at a time gives the same array.
-/
import proofs.«143600_j81166291959925_1_alg».proof.Proof.Gen.ReferenceIdeal
import proofs.«143600_j81166291959925_1_alg».proof.Proof.LibPlainDot

noncomputable section

open scoped BigOperators

namespace Cert.Products

open Idealize.ShloMosaic Idealize.ShloMosaic.ValueIdx Cert.ReferenceIdeal Cert.ReferenceIdeal.Gen

variable {F : FTy → Type} [FloatOps F]

/-- Node features `[100000, 128]` times a weight matrix `[128, 128]`. -/
def prodHidden (A : (⟨S100000x128, .f32⟩ : BufTy).Contents (Elt F)) (B : (⟨S128x128, .f32⟩ : BufTy).Contents (Elt F)) :
    (⟨S100000x128, .f32⟩ : BufTy).Contents (Elt F) :=
  Host.dotGeneral dot_S100000x128_S128x128_S100000x128_1_0_0_1_n_n none A B

/-- Node features `[100000, 128]` times a weight matrix `[128, 64]`. -/
def prodOut (A : (⟨S100000x128, .f32⟩ : BufTy).Contents (Elt F)) (B : (⟨S128x64, .f32⟩ : BufTy).Contents (Elt F)) :
    (⟨S100000x64, .f32⟩ : BufTy).Contents (Elt F) :=
  Host.dotGeneral dot_S100000x128_S128x64_S100000x64_1_0_0_1_n_n none A B

/-- An element of the hidden-width product: the sum over the 128 features. -/
theorem prodHidden_apply (A : (⟨S100000x128, .f32⟩ : BufTy).Contents (Elt Ideal))
    (B : (⟨S128x128, .f32⟩ : BufTy).Contents (Elt Ideal)) (i : S100000x128.Idx) :
    prodHidden (F := Ideal) A B i = ∑ k : Fin 128, A (ix2 (i 0) k) * B (ix2 k (i 1)) := by
  unfold prodHidden
  simp only [Host.dotGeneral]
  exact PlainDot.dotGeneral_apply (M := 100000) (K := 128) (N := 128)
    dot_S100000x128_S128x128_S100000x128_1_0_0_1_n_n ⟨rfl, rfl, rfl, rfl, rfl, rfl⟩ rfl rfl _ _ A B i

/-- An element of the output-width product: the sum over the 128 features. -/
theorem prodOut_apply (A : (⟨S100000x128, .f32⟩ : BufTy).Contents (Elt Ideal))
    (B : (⟨S128x64, .f32⟩ : BufTy).Contents (Elt Ideal)) (i : S100000x64.Idx) :
    prodOut (F := Ideal) A B i = ∑ k : Fin 128, A (ix2 (i 0) k) * B (ix2 k (i 1)) := by
  unfold prodOut
  simp only [Host.dotGeneral]
  exact PlainDot.dotGeneral_apply (M := 100000) (K := 128) (N := 64)
    dot_S100000x128_S128x64_S100000x64_1_0_0_1_n_n ⟨rfl, rfl, rfl, rfl, rfl, rfl⟩ rfl rfl _ _ A B i

end Cert.Products

end
-- ==== Proof.Layer1.lean ====
/-
  The first launch of the row-blocked matrix product: its output array is the WHOLE product of its two input arrays.

  The launch has 25 grid points. Point `t` loads rows `4000·t … 4000·t + 3999` of the `100000×128` left array and
  the whole `128×128` right array, multiplies them on the matrix unit into a zero accumulator (the narrowing to
  bf16 in front is the identity on extended reals) and writes the `4000×128` result back to the same rows of the
  output. Element `(r, c)` of a block product is `∑ k, left (r, k) · right (k, c)`, a sum that mentions row `r` of the
  left array only; so what point `t` writes back is rows `4000·t …` of the whole product, the 25 blocks cover all
  100000 rows, and the output array ends as the whole product — for whatever the two input arrays hold when the
  launch is entered.
-/
import proofs.«143600_j81166291959925_1_alg».proof.Proof.Gen.KernelIdeal.Frame
import proofs.«143600_j81166291959925_1_alg».proof.Proof.Products
import Idealize.ShloMosaic.Lib.Pipeline.Value
import Idealize.ShloMosaic.Lib.ValueIdx

set_option maxRecDepth 16384

noncomputable section

open scoped BigOperators

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The offsets of the body's one load per operand and its one store: zero on both axes. -/
theorem hz : (![0, 0] : Fin 2 → Nat) = fun _ => 0 := funext fun a => by fin_cases a <;> rfl

/-- An element of a block product: the sum over the 128 features of the block's row against the weights' column. -/
theorem pay_apply (x0 : Vec Ideal S4000x128 .f32) (x1 : Vec Ideal S128x128 .f32) (y : S4000x128.Idx) :
    k0_pay1 (F := Ideal) x0 x1 y = ∑ k : Fin 128, x0 (ix2 (y 0) k) * x1 (ix2 k (y 1)) := by
  unfold k0_pay1
  exact PlainDot.matmul_zero_apply (M := 4000) (K := 128) (N := 128)
    dot_S4000x128_S128x128_S4000x128_1_0_0_1_n_n ⟨rfl, rfl, rfl, rfl, rfl, rfl⟩ rfl rfl none _ _ y

/-- The index maps, decided over the 25 points: the left window and the output window sit on the same row block,
    column block 0; the weights' window is always block (0, 0); there are 25 row blocks. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every one of the 25 row blocks is some point's. -/
theorem idx_onto : ∀ (q0 : Fin 25), ∃ t : Fin cfg0.N, win0_2.index t = ![q0.val, 0] :=
  (by decide +kernel : ∀ (q0 : Fin 25), ∃ t : Fin grid0.N, win0_2.index t = ![q0.val, 0])

variable (V : (c : Dev nD) → (b : Ref sig .tc) → Buf (Elt Ideal) ((c : Thread nD τ).loc b))

/-- WHAT POINT `t` WRITES BACK is its block of rows of the whole product of the two input arrays. -/
theorem flushed_eq (c : Dev nD) (t : Fin cfg0.N) :
    (dat0 (F := Ideal) V c).flushed 2 t
      = ((cfg0.win 2).blk t).view.read (Elt Ideal) (Cert.Products.prodHidden (V c main_arg0) (V c main_arg3)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  obtain ⟨e0, e1, e2, e3, e4, e5⟩ := idx_facts t
  funext y
  show k0_pay1 (F := Ideal) (iblk0 V c 0 t) (iblk0 V c 1 t) y
    = Cert.Products.prodHidden (V c main_arg0) (V c main_arg3) (((cfg0.win 2).blk t).view.emb y)
  refine (pay_apply (iblk0 V c 0 t) (iblk0 V c 1 t) y).trans ?_
  refine Eq.trans ?_ (Cert.Products.prodHidden_apply (V c main_arg0) (V c main_arg3) (((cfg0.win 2).blk t).view.emb y)).symm
  refine Finset.sum_congr rfl fun k _ => ?_
  have h0 : ((cfg0.win 0).blk t).view.emb (ix2 (y 0) k) = ix2 ((((cfg0.win 2).blk t).view.emb y) 0) k := by
    funext a; apply Fin.ext
    match a with
    | ⟨0, _⟩ => show win0_0.index t (0 : Fin 2) * 4000 + 1 * (y 0).val = win0_2.index t (0 : Fin 2) * 4000 + 1 * (y 0).val; omega
    | ⟨1, _⟩ => show win0_0.index t (1 : Fin 2) * 128 + 1 * k.val = k.val; omega
  have h1 : ((cfg0.win 1).blk t).view.emb (ix2 k (y 1)) = ix2 k ((((cfg0.win 2).blk t).view.emb y) 1) := by
    funext a; apply Fin.ext
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  have r0 : iblk0 V c 0 t (ix2 (y 0) k) = V c main_arg0 (ix2 ((((cfg0.win 2).blk t).view.emb y) 0) k) := by
    show V c main_arg0 (((cfg0.win 0).blk t).view.emb (ix2 (y 0) k)) = _
    rw [h0]
    rfl
  have r1 : iblk0 V c 1 t (ix2 k (y 1)) = V c main_arg3 (ix2 k ((((cfg0.win 2).blk t).view.emb y) 1)) := by
    show V c main_arg3 (((cfg0.win 1).blk t).view.emb (ix2 k (y 1))) = _
    rw [h1]
    rfl
  rw [r0, r1]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v32).slice (win0_2.rect t)).set ↔ _
  rw [View.set_slice_whole, Rect.mem_set_unit]
  exact Iff.rfl

/-- THE COVER: row `r` of the output is written back by the point whose row block is `r / 4000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- THE OUTPUT ARRAY after the launch is the whole product of the two input arrays as the launch finds them. -/
theorem out (c : Dev nD) :
    (dat0 (F := Ideal) V c).arrAt 2 cfg0.N = Cert.Products.prodHidden (V c main_arg0) (V c main_arg3) :=
  (dat0 (F := Ideal) V c).arrAt_eq_of_cover 2 _ (fun t _ => flushed_eq V c t) cover

end Cert.KernelIdeal.Layer1

end
-- ==== Proof.Layer2.lean ====
/-
  The second launch of the row-blocked matrix product: its output array is the WHOLE product of its two input arrays.

  The launch has 25 grid points. Point `t` loads rows `4000·t … 4000·t + 3999` of the `100000×128` left array and
  the whole `128×128` right array, multiplies them on the matrix unit into a zero accumulator (the cast of the left
  block to its own shape and the narrowing to bf16 in front are the identity on extended reals) and writes the
  `4000×128` result back to the same rows of the output. Element `(r, c)` of a block product is `∑ k, left (r, k) · right (k, c)`, a sum that mentions row `r` of the
  left array only; so what point `t` writes back is rows `4000·t …` of the whole product, the 25 blocks cover all
  100000 rows, and the output array ends as the whole product — for whatever the two input arrays hold when the
  launch is entered.
-/
import proofs.«143600_j81166291959925_1_alg».proof.Proof.Gen.KernelIdeal.Frame
import proofs.«143600_j81166291959925_1_alg».proof.Proof.Products
import Idealize.ShloMosaic.Lib.Pipeline.Value
import Idealize.ShloMosaic.Lib.ValueIdx

set_option maxRecDepth 16384

noncomputable section

open scoped BigOperators

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The offsets of the body's one load per operand and its one store: zero on both axes. -/
theorem hz : (![0, 0] : Fin 2 → Nat) = fun _ => 0 := funext fun a => by fin_cases a <;> rfl

/-- An element of a block product: the sum over the 128 features of the block's row against the weights' column. -/
theorem pay_apply (x0 : Vec Ideal S4000x128 .f32) (x1 : Vec Ideal S128x128 .f32) (y : S4000x128.Idx) :
    k1_pay1 (F := Ideal) x0 x1 y = ∑ k : Fin 128, x0 (ix2 (y 0) k) * x1 (ix2 k (y 1)) := by
  unfold k1_pay1
  rw [shapeCast_self]
  exact PlainDot.matmul_zero_apply (M := 4000) (K := 128) (N := 128)
    dot_S4000x128_S128x128_S4000x128_1_0_0_1_n_n ⟨rfl, rfl, rfl, rfl, rfl, rfl⟩ rfl rfl none _ _ y

/-- The index maps, decided over the 25 points: the left window and the output window sit on the same row block,
    column block 0; the weights' window is always block (0, 0); there are 25 row blocks. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Every one of the 25 row blocks is some point's. -/
theorem idx_onto : ∀ (q0 : Fin 25), ∃ t : Fin cfg1.N, win1_2.index t = ![q0.val, 0] :=
  (by decide +kernel : ∀ (q0 : Fin 25), ∃ t : Fin grid1.N, win1_2.index t = ![q0.val, 0])

variable (V : (c : Dev nD) → (b : Ref sig .tc) → Buf (Elt Ideal) ((c : Thread nD τ).loc b))

/-- WHAT POINT `t` WRITES BACK is its block of rows of the whole product of the two input arrays. -/
theorem flushed_eq (c : Dev nD) (t : Fin cfg1.N) :
    (dat1 (F := Ideal) V c).flushed 2 t
      = ((cfg1.win 2).blk t).view.read (Elt Ideal) (Cert.Products.prodHidden (V c main_v49) (V c main_arg5)) := by
  show (cfg1.win 2).cut (grid1.coords t) ((dat1 V c).after 2 t) = _
  rw [after1_2]
  unfold out1_2
  rw [View.canon_unit_zero hz]
  simp only [View.ld_unit_zero (S := S4000x128) hz, View.ld_unit_zero (S := S128x128) hz]
  obtain ⟨e0, e1, e2, e3, e4, e5⟩ := idx_facts t
  funext y
  show k1_pay1 (F := Ideal) (iblk1 V c 0 t) (iblk1 V c 1 t) y
    = Cert.Products.prodHidden (V c main_v49) (V c main_arg5) (((cfg1.win 2).blk t).view.emb y)
  refine (pay_apply (iblk1 V c 0 t) (iblk1 V c 1 t) y).trans ?_
  refine Eq.trans ?_ (Cert.Products.prodHidden_apply (V c main_v49) (V c main_arg5) (((cfg1.win 2).blk t).view.emb y)).symm
  refine Finset.sum_congr rfl fun k _ => ?_
  have h0 : ((cfg1.win 0).blk t).view.emb (ix2 (y 0) k) = ix2 ((((cfg1.win 2).blk t).view.emb y) 0) k := by
    funext a; apply Fin.ext
    match a with
    | ⟨0, _⟩ => show win1_0.index t (0 : Fin 2) * 4000 + 1 * (y 0).val = win1_2.index t (0 : Fin 2) * 4000 + 1 * (y 0).val; omega
    | ⟨1, _⟩ => show win1_0.index t (1 : Fin 2) * 128 + 1 * k.val = k.val; omega
  have h1 : ((cfg1.win 1).blk t).view.emb (ix2 k (y 1)) = ix2 k ((((cfg1.win 2).blk t).view.emb y) 1) := by
    funext a; apply Fin.ext
    match a with
    | ⟨0, _⟩ => show win1_1.index t (0 : Fin 2) * 128 + 1 * k.val = k.val; omega
    | ⟨1, _⟩ => show win1_1.index t (1 : Fin 2) * 128 + 1 * (y 1).val = win1_2.index t (1 : Fin 2) * 128 + 1 * (y 1).val; omega
  have r0 : iblk1 V c 0 t (ix2 (y 0) k) = V c main_v49 (ix2 ((((cfg1.win 2).blk t).view.emb y) 0) k) := by
    show V c main_v49 (((cfg1.win 0).blk t).view.emb (ix2 (y 0) k)) = _
    rw [h0]
    rfl
  have r1 : iblk1 V c 1 t (ix2 k (y 1)) = V c main_arg5 (ix2 k ((((cfg1.win 2).blk t).view.emb y) 1)) := by
    show V c main_arg5 (((cfg1.win 1).blk t).view.emb (ix2 k (y 1))) = _
    rw [h1]
    rfl
  rw [r0, r1]

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v50).slice (win1_2.rect t)).set ↔ _
  rw [View.set_slice_whole, Rect.mem_set_unit]
  exact Iff.rfl

/-- THE COVER: row `r` of the output is written back by the point whose row block is `r / 4000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 4000, by omega⟩
  have q0 : win1_2.index t (0 : Fin 2) = (i 0).val / 4000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- THE OUTPUT ARRAY after the launch is the whole product of the two input arrays as the launch finds them. -/
theorem out (c : Dev nD) :
    (dat1 (F := Ideal) V c).arrAt 2 cfg1.N = Cert.Products.prodHidden (V c main_v49) (V c main_arg5) :=
  (dat1 (F := Ideal) V c).arrAt_eq_of_cover 2 _ (fun t _ => flushed_eq V c t) cover

end Cert.KernelIdeal.Layer2

end
-- ==== Proof.Layer3.lean ====
/-
  The third launch of the row-blocked matrix product: its output array is the WHOLE product of its two input arrays.

  The launch has 25 grid points. Point `t` loads rows `4000·t … 4000·t + 3999` of the `100000×128` left array and
  the whole `128×64` right array, multiplies them on the matrix unit into a zero accumulator (the cast of the left
  block to its own shape and the narrowing to bf16 in front are the identity on extended reals) and writes the
  `4000×64` result back to the same rows of the output. Element `(r, c)` of a block product is `∑ k, left (r, k) · right (k, c)`, a sum that mentions row `r` of the
  left array only; so what point `t` writes back is rows `4000·t …` of the whole product, the 25 blocks cover all
  100000 rows, and the output array ends as the whole product — for whatever the two input arrays hold when the
  launch is entered.
-/
import proofs.«143600_j81166291959925_1_alg».proof.Proof.Gen.KernelIdeal.Frame
import proofs.«143600_j81166291959925_1_alg».proof.Proof.Products
import Idealize.ShloMosaic.Lib.Pipeline.Value
import Idealize.ShloMosaic.Lib.ValueIdx

set_option maxRecDepth 16384

noncomputable section

open scoped BigOperators

namespace Cert.KernelIdeal.Layer3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The offsets of the body's one load per operand and its one store: zero on both axes. -/
theorem hz : (![0, 0] : Fin 2 → Nat) = fun _ => 0 := funext fun a => by fin_cases a <;> rfl

/-- An element of a block product: the sum over the 128 features of the block's row against the weights' column. -/
theorem pay_apply (x0 : Vec Ideal S4000x128 .f32) (x1 : Vec Ideal S128x64 .f32) (y : S4000x64.Idx) :
    k2_pay1 (F := Ideal) x0 x1 y = ∑ k : Fin 128, x0 (ix2 (y 0) k) * x1 (ix2 k (y 1)) := by
  unfold k2_pay1
  rw [shapeCast_self]
  exact PlainDot.matmul_zero_apply (M := 4000) (K := 128) (N := 64)
    dot_S4000x128_S128x64_S4000x64_1_0_0_1_n_n ⟨rfl, rfl, rfl, rfl, rfl, rfl⟩ rfl rfl none _ _ y

/-- The index maps, decided over the 25 points: the left window and the output window sit on the same row block,
    column block 0; the weights' window is always block (0, 0); there are 25 row blocks. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 24 :=
  (by decide +kernel : ∀ t : Fin grid2.N, _)

/-- Every one of the 25 row blocks is some point's. -/
theorem idx_onto : ∀ (q0 : Fin 25), ∃ t : Fin cfg2.N, win2_2.index t = ![q0.val, 0] :=
  (by decide +kernel : ∀ (q0 : Fin 25), ∃ t : Fin grid2.N, win2_2.index t = ![q0.val, 0])

variable (V : (c : Dev nD) → (b : Ref sig .tc) → Buf (Elt Ideal) ((c : Thread nD τ).loc b))

/-- WHAT POINT `t` WRITES BACK is its block of rows of the whole product of the two input arrays. -/
theorem flushed_eq (c : Dev nD) (t : Fin cfg2.N) :
    (dat2 (F := Ideal) V c).flushed 2 t
      = ((cfg2.win 2).blk t).view.read (Elt Ideal) (Cert.Products.prodOut (V c main_v67) (V c main_arg7)) := by
  show (cfg2.win 2).cut (grid2.coords t) ((dat2 V c).after 2 t) = _
  rw [after2_2]
  unfold out2_2
  rw [View.canon_unit_zero hz]
  simp only [View.ld_unit_zero (S := S4000x128) hz, View.ld_unit_zero (S := S128x64) hz]
  obtain ⟨e0, e1, e2, e3, e4, e5⟩ := idx_facts t
  funext y
  show k2_pay1 (F := Ideal) (iblk2 V c 0 t) (iblk2 V c 1 t) y
    = Cert.Products.prodOut (V c main_v67) (V c main_arg7) (((cfg2.win 2).blk t).view.emb y)
  refine (pay_apply (iblk2 V c 0 t) (iblk2 V c 1 t) y).trans ?_
  refine Eq.trans ?_ (Cert.Products.prodOut_apply (V c main_v67) (V c main_arg7) (((cfg2.win 2).blk t).view.emb y)).symm
  refine Finset.sum_congr rfl fun k _ => ?_
  have h0 : ((cfg2.win 0).blk t).view.emb (ix2 (y 0) k) = ix2 ((((cfg2.win 2).blk t).view.emb y) 0) k := by
    funext a; apply Fin.ext
    match a with
    | ⟨0, _⟩ => show win2_0.index t (0 : Fin 2) * 4000 + 1 * (y 0).val = win2_2.index t (0 : Fin 2) * 4000 + 1 * (y 0).val; omega
    | ⟨1, _⟩ => show win2_0.index t (1 : Fin 2) * 128 + 1 * k.val = k.val; omega
  have h1 : ((cfg2.win 1).blk t).view.emb (ix2 k (y 1)) = ix2 k ((((cfg2.win 2).blk t).view.emb y) 1) := by
    funext a; apply Fin.ext
    match a with
    | ⟨0, _⟩ => show win2_1.index t (0 : Fin 2) * 128 + 1 * k.val = k.val; omega
    | ⟨1, _⟩ => show win2_1.index t (1 : Fin 2) * 64 + 1 * (y 1).val = win2_2.index t (1 : Fin 2) * 64 + 1 * (y 1).val; omega
  have r0 : iblk2 V c 0 t (ix2 (y 0) k) = V c main_v67 (ix2 ((((cfg2.win 2).blk t).view.emb y) 0) k) := by
    show V c main_v67 (((cfg2.win 0).blk t).view.emb (ix2 (y 0) k)) = _
    rw [h0]
    rfl
  have r1 : iblk2 V c 1 t (ix2 k (y 1)) = V c main_arg7 (ix2 k ((((cfg2.win 2).blk t).view.emb y) 1)) := by
    show V c main_arg7 (((cfg2.win 1).blk t).view.emb (ix2 k (y 1))) = _
    rw [h1]
    rfl
  rw [r0, r1]

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v68).slice (win2_2.rect t)).set ↔ _
  rw [View.set_slice_whole, Rect.mem_set_unit]
  exact Iff.rfl

/-- THE COVER: row `r` of the output is written back by the point whose row block is `r / 4000`. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 64 ≤ (i 1).val ∧ (i 1).val < win2_2.index t (1 : Fin 2) * 64 + 64; omega

/-- THE OUTPUT ARRAY after the launch is the whole product of the two input arrays as the launch finds them. -/
theorem out (c : Dev nD) :
    (dat2 (F := Ideal) V c).arrAt 2 cfg2.N = Cert.Products.prodOut (V c main_v67) (V c main_arg7) :=
  (dat2 (F := Ideal) V c).arrAt_eq_of_cover 2 _ (fun t _ => flushed_eq V c t) cover

end Cert.KernelIdeal.Layer3

end
-- ==== Proof.LibTypedRef.lean ====
/-
  Typed references of a host program: the transport of contents along a buffer's type equation is the identity.

  A called host function's operations name their buffers as TYPED references: a reference `r` together with the
  equation `r.ty = T`, and they read and write contents through the transport along that equation
  (`ofBuf`, `toBuf`: a `cast`). A transport along an equation of types changes nothing but the type: what it
  returns is heterogeneously equal to what it was given. Hence reading back through a typed reference what was
  written through it gives the contents back, and reading or writing through a typed reference contents that are
  heterogeneously equal to `w` gives `w` (at a literal reference the two types are the same by computation, and the
  heterogeneous equality is reflexivity). Proved by substituting the type equation, never by unfolding the transport.
  General in the program's signature and the value family.
-/
import Idealize.ShloMosaic.Lib.StableHlo.Run

namespace TypedRef

open Idealize.ShloMosaic Idealize.ShloMosaic.StableHlo

variable {sig : RefSig} {Val : EltTy → Type}

/-- Reading back through a typed reference what was put through it. -/
theorem ofBuf_toBuf {T : BufTy} (x : TRef sig T) (v : T.Contents Val) : x.ofBuf (x.toBuf v) = v := by
  unfold TRef.ofBuf TRef.toBuf
  rw [cast_cast]
  exact cast_eq _ _

/-- Contents read through a typed reference are the contents. -/
theorem ofBuf_lit (r : Ref sig .tc) (T : BufTy) (h : r.ty = T) (h2 : r.space ≠ .host) (h3 : r.isScoped = false)
    (v : r.ty.Contents Val) (w : T.Contents Val) (hvw : HEq v w) : (TRef.of r h h2 h3).ofBuf v = w := by
  subst h
  exact eq_of_heq ((cast_heq _ _).trans hvw)

/-- Contents put through a typed reference are the contents. -/
theorem toBuf_lit (r : Ref sig .tc) (T : BufTy) (h : r.ty = T) (h2 : r.space ≠ .host) (h3 : r.isScoped = false)
    (w : T.Contents Val) (v : r.ty.Contents Val) (hwv : HEq w v) : (TRef.of r h h2 h3).toBuf w = v := by
  subst h
  exact eq_of_heq ((cast_heq _ _).trans hwv)

end TypedRef
-- ==== Proof.KernelValue.lean ====
/-
  The idealized kernel's result buffer, read back through the program, is the reference's function of the arguments.

  The program alternates host stretches with three launches of the row-blocked matrix product. Walking the
  buffer contents from the launch memory to the return, every buffer a later stretch still reads is named at
  each boundary as the SAME stage function of the argument arrays that the reference program computes
  (`val_main_vN`): the edge lists with self-loops (`v3` rows, `v6` columns), the edge weights with the loops'
  ones (`v8`), the symmetric normalisation `dinv[row]·w·dinv[col]` (`v31`), and layer by layer the projected
  features (`v32`, `v50`, `v68`: a launch's output array is the whole product of its two input arrays, which is the
  host's `dot_general` of the same operands), the aggregated and biased features (`v48`, `v66`), their rectified
  values (`v49`, `v67`) and the result (`v84`). A host stretch is read by unfolding its operations over the
  boundary before it; a launch by the whole-product theorem of its layer; a buffer nobody writes keeps its contents.
-/
import proofs.«143600_j81166291959925_1_alg».proof.Proof.Gen.KernelIdeal.Frame
import proofs.«143600_j81166291959925_1_alg».proof.Proof.Gen.ReferenceIdeal.Read
import proofs.«143600_j81166291959925_1_alg».proof.Proof.Layer1
import proofs.«143600_j81166291959925_1_alg».proof.Proof.Layer2
import proofs.«143600_j81166291959925_1_alg».proof.Proof.Layer3
import proofs.«143600_j81166291959925_1_alg».proof.Proof.LibTypedRef
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open TypedRef (ofBuf_toBuf ofBuf_lit toBuf_lit)
open Cert.ReferenceIdeal.Read (val_main_v3 val_main_v6 val_main_v8 val_main_v13 val_main_v14 val_main_cst_2 val_main_v15
  val_main_v31 val_main_v32 val_main_v48 val_main_v49 val_main_v50 val_main_v66 val_main_v67 val_main_v68 val_main_v84)

variable (m : (ℓ : Loc nD τ sig) → Buf (Elt Ideal) ℓ) (ρ : Dev nD → PrngReg) (c : Dev nD)

/-! ## Up to the first launch: the graph's normalisation -/

/-- The contents after the first host stretch (edge lists, weights, degrees, their comparison and inverse roots). -/
def X1 : Valuation τ sig (Elt Ideal) := W1 m ρ c
/-- The contents after the `where` that zeroes the inverse root of an empty degree. -/
def X2 : Valuation τ sig (Elt Ideal) := W2 m ρ c
/-- The contents after the first layer's gather, scaling, scatter-add and bias. -/
def X5 : Valuation τ sig (Elt Ideal) := W5 m ρ c
/-- The contents after the second layer's gather, scaling, scatter-add and bias. -/
def X8 : Valuation τ sig (Elt Ideal) := W8 m ρ c

set_option maxHeartbeats 1000000 in
theorem x1_v3 : X1 m ρ c (Proc.devRef .tc main_v3) = val_main_v3 (F := Ideal) (m ((c.tc : Thread nD τ).loc main_arg1)) := by
  show StableHlo.after hostOps0 (W0 m ρ c) (Proc.devRef .tc main_v3) = _
  after_results
  rfl

set_option maxHeartbeats 1000000 in
theorem x1_v6 : X1 m ρ c (Proc.devRef .tc main_v6) = val_main_v6 (F := Ideal) (m ((c.tc : Thread nD τ).loc main_arg1)) := by
  show StableHlo.after hostOps0 (W0 m ρ c) (Proc.devRef .tc main_v6) = _
  after_results
  rfl

set_option maxHeartbeats 1000000 in
theorem x1_v8 : X1 m ρ c (Proc.devRef .tc main_v8) = val_main_v8 (F := Ideal) (m ((c.tc : Thread nD τ).loc main_arg2)) := by
  show StableHlo.after hostOps0 (W0 m ρ c) (Proc.devRef .tc main_v8) = _
  after_results
  rfl

set_option maxHeartbeats 1000000 in
theorem x1_v13 : X1 m ρ c (Proc.devRef .tc main_v13) = val_main_v13 (F := Ideal) (m ((c.tc : Thread nD τ).loc main_arg1)) (m ((c.tc : Thread nD τ).loc main_arg2)) := by
  show StableHlo.after hostOps0 (W0 m ρ c) (Proc.devRef .tc main_v13) = _
  after_results
  rfl

set_option maxHeartbeats 1000000 in
theorem x1_v14 : X1 m ρ c (Proc.devRef .tc main_v14) = val_main_v14 (F := Ideal) (m ((c.tc : Thread nD τ).loc main_arg1)) (m ((c.tc : Thread nD τ).loc main_arg2)) := by
  show StableHlo.after hostOps0 (W0 m ρ c) (Proc.devRef .tc main_v14) = _
  after_results
  rfl

set_option maxHeartbeats 1000000 in
theorem x1_cst_2 : X1 m ρ c (Proc.devRef .tc main_cst_2) = val_main_cst_2 (F := Ideal) := by
  show StableHlo.after hostOps0 (W0 m ρ c) (Proc.devRef .tc main_cst_2) = _
  after_results
  rfl

theorem x2_v3 : X2 m ρ c (Proc.devRef .tc main_v3) = val_main_v3 (F := Ideal) (m ((c.tc : Thread nD τ).loc main_arg1)) := by
  show StableHlo.after hostOps0_1 (X1 m ρ c) (Proc.devRef .tc main_v3) = _
  after_results
  exact x1_v3 m ρ c

theorem x2_v6 : X2 m ρ c (Proc.devRef .tc main_v6) = val_main_v6 (F := Ideal) (m ((c.tc : Thread nD τ).loc main_arg1)) := by
  show StableHlo.after hostOps0_1 (X1 m ρ c) (Proc.devRef .tc main_v6) = _
  after_results
  exact x1_v6 m ρ c

theorem x2_v8 : X2 m ρ c (Proc.devRef .tc main_v8) = val_main_v8 (F := Ideal) (m ((c.tc : Thread nD τ).loc main_arg2)) := by
  show StableHlo.after hostOps0_1 (X1 m ρ c) (Proc.devRef .tc main_v8) = _
  after_results
  exact x1_v8 m ρ c

set_option maxHeartbeats 1000000 in
/-- The inverse root of the degree, zero where the degree is not positive. -/
theorem x2_v15 : X2 m ρ c (Proc.devRef .tc main_v15) = val_main_v15 (F := Ideal) (m ((c.tc : Thread nD τ).loc main_arg1)) (m ((c.tc : Thread nD τ).loc main_arg2)) := by
  show StableHlo.after hostOps0_1 (X1 m ρ c) (Proc.devRef .tc main_v15) = _
  after_results
  rw [x1_v13, x1_v14, x1_cst_2]
  rw [ofBuf_toBuf, ofBuf_toBuf]
  rw [ofBuf_lit main_v13 _ _ _ _ (val_main_v13 (F := Ideal) (m ((c.tc : Thread nD τ).loc main_arg1)) (m ((c.tc : Thread nD τ).loc main_arg2))) (val_main_v13 (F := Ideal) (m ((c.tc : Thread nD τ).loc main_arg1)) (m ((c.tc : Thread nD τ).loc main_arg2))) HEq.rfl,
    ofBuf_lit main_v14 _ _ _ _ (val_main_v14 (F := Ideal) (m ((c.tc : Thread nD τ).loc main_arg1)) (m ((c.tc : Thread nD τ).loc main_arg2))) (val_main_v14 (F := Ideal) (m ((c.tc : Thread nD τ).loc main_arg1)) (m ((c.tc : Thread nD τ).loc main_arg2))) HEq.rfl,
    ofBuf_lit main_cst_2 _ _ _ _ (val_main_cst_2 (F := Ideal)) (val_main_cst_2 (F := Ideal)) HEq.rfl]
  exact toBuf_lit main_v15 _ _ _ _ _ (val_main_v15 (F := Ideal) (m ((c.tc : Thread nD τ).loc main_arg1)) (m ((c.tc : Thread nD τ).loc main_arg2))) HEq.rfl

set_option maxHeartbeats 1000000 in
theorem w3_v3 : W3 m ρ c (Proc.devRef .tc main_v3) = val_main_v3 (F := Ideal) (m ((c.tc : Thread nD τ).loc main_arg1)) := by
  show StableHlo.after hostOps0_2 (X2 m ρ c) (Proc.devRef .tc main_v3) = _
  after_results
  exact x2_v3 m ρ c

set_option maxHeartbeats 1000000 in
theorem w3_v6 : W3 m ρ c (Proc.devRef .tc main_v6) = val_main_v6 (F := Ideal) (m ((c.tc : Thread nD τ).loc main_arg1)) := by
  show StableHlo.after hostOps0_2 (X2 m ρ c) (Proc.devRef .tc main_v6) = _
  after_results
  exact x2_v6 m ρ c

set_option maxHeartbeats 2000000 in
/-- The normalisation of every edge: the inverse roots at its two ends times its weight. -/
theorem w3_v31 : W3 m ρ c (Proc.devRef .tc main_v31) = val_main_v31 (F := Ideal) (m ((c.tc : Thread nD τ).loc main_arg1)) (m ((c.tc : Thread nD τ).loc main_arg2)) := by
  show StableHlo.after hostOps0_2 (X2 m ρ c) (Proc.devRef .tc main_v31) = _
  after_results_simp
  rw [x2_v3, x2_v6, x2_v8, x2_v15]
  rfl

/-! No host operation writes an argument array. -/

set_option maxHeartbeats 1000000 in
theorem w3_arg0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results

set_option maxHeartbeats 1000000 in
theorem w3_arg3 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results

set_option maxHeartbeats 1000000 in
theorem w3_arg4 : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results

set_option maxHeartbeats 1000000 in
theorem w3_arg5 : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  after_results

set_option maxHeartbeats 1000000 in
theorem w3_arg6 : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  after_results

set_option maxHeartbeats 1000000 in
theorem w3_arg7 : W3 m ρ c (Proc.devRef .tc main_arg7) = (m ((c.tc : Thread nD τ).loc main_arg7)) := by
  show StableHlo.after hostOps0_2 (StableHlo.after hostOps0_1 (StableHlo.after hostOps0 (W0 m ρ c))) (Proc.devRef .tc main_arg7) = _
  after_results

set_option maxHeartbeats 1000000 in
theorem w3_arg8 : W3 m ρ c (Proc.devRef .tc main_arg8) = (m ((c.tc : Thread nD τ).loc main_arg8)) := by
  show StableHlo.after hostOps0_2 (StableHlo.after hostOps0_1 (StableHlo.after hostOps0 (W0 m ρ c))) (Proc.devRef .tc main_arg8) = _
  after_results

/-! ## The first layer -/

/-- The first launch's output array: the whole product of the node features and the first weights. -/
theorem w4_v32 : W4 m ρ c (Proc.devRef .tc main_v32) = val_main_v32 (F := Ideal) (m ((c.tc : Thread nD τ).loc main_arg0)) (m ((c.tc : Thread nD τ).loc main_arg3)) :=
  (W4_arr m ρ c 2).trans ((Layer1.out (V3 m ρ) c).trans (by
    show Cert.Products.prodHidden (W3 m ρ c (Proc.devRef .tc main_arg0)) (W3 m ρ c (Proc.devRef .tc main_arg3)) = _
    rw [w3_arg0, w3_arg3]
    rfl))

theorem w4_v3 : W4 m ρ c (Proc.devRef .tc main_v3) = val_main_v3 (F := Ideal) (m ((c.tc : Thread nD τ).loc main_arg1)) :=
  (W4_of_ne m ρ c main_v3 (by decide)).trans (w3_v3 m ρ c)

theorem w4_v6 : W4 m ρ c (Proc.devRef .tc main_v6) = val_main_v6 (F := Ideal) (m ((c.tc : Thread nD τ).loc main_arg1)) :=
  (W4_of_ne m ρ c main_v6 (by decide)).trans (w3_v6 m ρ c)

theorem w4_v31 : W4 m ρ c (Proc.devRef .tc main_v31) = val_main_v31 (F := Ideal) (m ((c.tc : Thread nD τ).loc main_arg1)) (m ((c.tc : Thread nD τ).loc main_arg2)) :=
  (W4_of_ne m ρ c main_v31 (by decide)).trans (w3_v31 m ρ c)

theorem w4_arg4 : W4 m ρ c (Proc.devRef .tc main_arg4) = (m ((c.tc : Thread nD τ).loc main_arg4)) :=
  (W4_of_ne m ρ c main_arg4 (by decide)).trans (w3_arg4 m ρ c)

theorem w4_arg5 : W4 m ρ c (Proc.devRef .tc main_arg5) = (m ((c.tc : Thread nD τ).loc main_arg5)) :=
  (W4_of_ne m ρ c main_arg5 (by decide)).trans (w3_arg5 m ρ c)

theorem w4_arg6 : W4 m ρ c (Proc.devRef .tc main_arg6) = (m ((c.tc : Thread nD τ).loc main_arg6)) :=
  (W4_of_ne m ρ c main_arg6 (by decide)).trans (w3_arg6 m ρ c)

theorem w4_arg7 : W4 m ρ c (Proc.devRef .tc main_arg7) = (m ((c.tc : Thread nD τ).loc main_arg7)) :=
  (W4_of_ne m ρ c main_arg7 (by decide)).trans (w3_arg7 m ρ c)

theorem w4_arg8 : W4 m ρ c (Proc.devRef .tc main_arg8) = (m ((c.tc : Thread nD τ).loc main_arg8)) :=
  (W4_of_ne m ρ c main_arg8 (by decide)).trans (w3_arg8 m ρ c)

set_option maxHeartbeats 2000000 in
/-- The first layer before its rectifier: projected rows gathered along the edges, scaled, summed into their targets, plus the bias. -/
theorem x5_v48 : X5 m ρ c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W4 m ρ c) (Proc.devRef .tc main_v48) = _
  after_results_simp
  rw [w4_v32, w4_v3, w4_v6, w4_v31, w4_arg4]
  rfl

set_option maxHeartbeats 1000000 in
/-- The first layer's features: the rectifier. -/
theorem w6_v49 : W6 m ρ c (Proc.devRef .tc main_v49) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1_1 (X5 m ρ c) (Proc.devRef .tc main_v49) = _
  after_results
  rw [x5_v48]
  rw [ofBuf_toBuf, ofBuf_toBuf]
  rw [ofBuf_lit main_v48 _ _ _ _ (val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) HEq.rfl]
  exact toBuf_lit main_v49 _ _ _ _ _ (val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) HEq.rfl

set_option maxHeartbeats 1000000 in
theorem w6_v3 : W6 m ρ c (Proc.devRef .tc main_v3) = val_main_v3 (F := Ideal) (m ((c.tc : Thread nD τ).loc main_arg1)) := by
  show StableHlo.after hostOps1_1 (StableHlo.after hostOps1 (W4 m ρ c)) (Proc.devRef .tc main_v3) = _
  after_results
  exact w4_v3 m ρ c

set_option maxHeartbeats 1000000 in
theorem w6_v6 : W6 m ρ c (Proc.devRef .tc main_v6) = val_main_v6 (F := Ideal) (m ((c.tc : Thread nD τ).loc main_arg1)) := by
  show StableHlo.after hostOps1_1 (StableHlo.after hostOps1 (W4 m ρ c)) (Proc.devRef .tc main_v6) = _
  after_results
  exact w4_v6 m ρ c

set_option maxHeartbeats 1000000 in
theorem w6_v31 : W6 m ρ c (Proc.devRef .tc main_v31) = val_main_v31 (F := Ideal) (m ((c.tc : Thread nD τ).loc main_arg1)) (m ((c.tc : Thread nD τ).loc main_arg2)) := by
  show StableHlo.after hostOps1_1 (StableHlo.after hostOps1 (W4 m ρ c)) (Proc.devRef .tc main_v31) = _
  after_results
  exact w4_v31 m ρ c

set_option maxHeartbeats 1000000 in
theorem w6_arg5 : W6 m ρ c (Proc.devRef .tc main_arg5) = (m ((c.tc : Thread nD τ).loc main_arg5)) := by
  show StableHlo.after hostOps1_1 (StableHlo.after hostOps1 (W4 m ρ c)) (Proc.devRef .tc main_arg5) = _
  after_results
  exact w4_arg5 m ρ c

set_option maxHeartbeats 1000000 in
theorem w6_arg6 : W6 m ρ c (Proc.devRef .tc main_arg6) = (m ((c.tc : Thread nD τ).loc main_arg6)) := by
  show StableHlo.after hostOps1_1 (StableHlo.after hostOps1 (W4 m ρ c)) (Proc.devRef .tc main_arg6) = _
  after_results
  exact w4_arg6 m ρ c

set_option maxHeartbeats 1000000 in
theorem w6_arg7 : W6 m ρ c (Proc.devRef .tc main_arg7) = (m ((c.tc : Thread nD τ).loc main_arg7)) := by
  show StableHlo.after hostOps1_1 (StableHlo.after hostOps1 (W4 m ρ c)) (Proc.devRef .tc main_arg7) = _
  after_results
  exact w4_arg7 m ρ c

set_option maxHeartbeats 1000000 in
theorem w6_arg8 : W6 m ρ c (Proc.devRef .tc main_arg8) = (m ((c.tc : Thread nD τ).loc main_arg8)) := by
  show StableHlo.after hostOps1_1 (StableHlo.after hostOps1 (W4 m ρ c)) (Proc.devRef .tc main_arg8) = _
  after_results
  exact w4_arg8 m ρ c

/-! ## The second layer -/

/-- The second launch's output array: the whole product of the first layer's features and the second weights. -/
theorem w7_v50 : W7 m ρ c (Proc.devRef .tc main_v50) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W7_arr m ρ c 2).trans ((Layer2.out (V6 m ρ) c).trans (by
    show Cert.Products.prodHidden (W6 m ρ c (Proc.devRef .tc main_v49)) (W6 m ρ c (Proc.devRef .tc main_arg5)) = _
    rw [w6_v49, w6_arg5]
    rfl))

theorem w7_v3 : W7 m ρ c (Proc.devRef .tc main_v3) = val_main_v3 (F := Ideal) (m ((c.tc : Thread nD τ).loc main_arg1)) :=
  (W7_of_ne m ρ c main_v3 (by decide)).trans (w6_v3 m ρ c)

theorem w7_v6 : W7 m ρ c (Proc.devRef .tc main_v6) = val_main_v6 (F := Ideal) (m ((c.tc : Thread nD τ).loc main_arg1)) :=
  (W7_of_ne m ρ c main_v6 (by decide)).trans (w6_v6 m ρ c)

theorem w7_v31 : W7 m ρ c (Proc.devRef .tc main_v31) = val_main_v31 (F := Ideal) (m ((c.tc : Thread nD τ).loc main_arg1)) (m ((c.tc : Thread nD τ).loc main_arg2)) :=
  (W7_of_ne m ρ c main_v31 (by decide)).trans (w6_v31 m ρ c)

theorem w7_arg6 : W7 m ρ c (Proc.devRef .tc main_arg6) = (m ((c.tc : Thread nD τ).loc main_arg6)) :=
  (W7_of_ne m ρ c main_arg6 (by decide)).trans (w6_arg6 m ρ c)

theorem w7_arg7 : W7 m ρ c (Proc.devRef .tc main_arg7) = (m ((c.tc : Thread nD τ).loc main_arg7)) :=
  (W7_of_ne m ρ c main_arg7 (by decide)).trans (w6_arg7 m ρ c)

theorem w7_arg8 : W7 m ρ c (Proc.devRef .tc main_arg8) = (m ((c.tc : Thread nD τ).loc main_arg8)) :=
  (W7_of_ne m ρ c main_arg8 (by decide)).trans (w6_arg8 m ρ c)

set_option maxHeartbeats 2000000 in
/-- The second layer before its rectifier. -/
theorem x8_v66 : X8 m ρ c (Proc.devRef .tc main_v66) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps2 (W7 m ρ c) (Proc.devRef .tc main_v66) = _
  after_results_simp
  rw [w7_v50, w7_v3, w7_v6, w7_v31, w7_arg6]
  rfl

set_option maxHeartbeats 1000000 in
/-- The second layer's features: the rectifier. -/
theorem w9_v67 : W9 m ρ c (Proc.devRef .tc main_v67) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps2_1 (X8 m ρ c) (Proc.devRef .tc main_v67) = _
  after_results
  rw [x8_v66]
  rw [ofBuf_toBuf, ofBuf_toBuf]
  rw [ofBuf_lit main_v66 _ _ _ _ (val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) HEq.rfl]
  exact toBuf_lit main_v67 _ _ _ _ _ (val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) HEq.rfl

set_option maxHeartbeats 1000000 in
theorem w9_v3 : W9 m ρ c (Proc.devRef .tc main_v3) = val_main_v3 (F := Ideal) (m ((c.tc : Thread nD τ).loc main_arg1)) := by
  show StableHlo.after hostOps2_1 (StableHlo.after hostOps2 (W7 m ρ c)) (Proc.devRef .tc main_v3) = _
  after_results
  exact w7_v3 m ρ c

set_option maxHeartbeats 1000000 in
theorem w9_v6 : W9 m ρ c (Proc.devRef .tc main_v6) = val_main_v6 (F := Ideal) (m ((c.tc : Thread nD τ).loc main_arg1)) := by
  show StableHlo.after hostOps2_1 (StableHlo.after hostOps2 (W7 m ρ c)) (Proc.devRef .tc main_v6) = _
  after_results
  exact w7_v6 m ρ c

set_option maxHeartbeats 1000000 in
theorem w9_v31 : W9 m ρ c (Proc.devRef .tc main_v31) = val_main_v31 (F := Ideal) (m ((c.tc : Thread nD τ).loc main_arg1)) (m ((c.tc : Thread nD τ).loc main_arg2)) := by
  show StableHlo.after hostOps2_1 (StableHlo.after hostOps2 (W7 m ρ c)) (Proc.devRef .tc main_v31) = _
  after_results
  exact w7_v31 m ρ c

set_option maxHeartbeats 1000000 in
theorem w9_arg7 : W9 m ρ c (Proc.devRef .tc main_arg7) = (m ((c.tc : Thread nD τ).loc main_arg7)) := by
  show StableHlo.after hostOps2_1 (StableHlo.after hostOps2 (W7 m ρ c)) (Proc.devRef .tc main_arg7) = _
  after_results
  exact w7_arg7 m ρ c

set_option maxHeartbeats 1000000 in
theorem w9_arg8 : W9 m ρ c (Proc.devRef .tc main_arg8) = (m ((c.tc : Thread nD τ).loc main_arg8)) := by
  show StableHlo.after hostOps2_1 (StableHlo.after hostOps2 (W7 m ρ c)) (Proc.devRef .tc main_arg8) = _
  after_results
  exact w7_arg8 m ρ c

/-! ## The third layer -/

/-- The third launch's output array: the whole product of the second layer's features and the third weights. -/
theorem w10_v68 : W10 m ρ c (Proc.devRef .tc main_v68) = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W10_arr m ρ c 2).trans ((Layer3.out (V9 m ρ) c).trans (by
    show Cert.Products.prodOut (W9 m ρ c (Proc.devRef .tc main_v67)) (W9 m ρ c (Proc.devRef .tc main_arg7)) = _
    rw [w9_v67, w9_arg7]
    rfl))

theorem w10_v3 : W10 m ρ c (Proc.devRef .tc main_v3) = val_main_v3 (F := Ideal) (m ((c.tc : Thread nD τ).loc main_arg1)) :=
  (W10_of_ne m ρ c main_v3 (by decide)).trans (w9_v3 m ρ c)

theorem w10_v6 : W10 m ρ c (Proc.devRef .tc main_v6) = val_main_v6 (F := Ideal) (m ((c.tc : Thread nD τ).loc main_arg1)) :=
  (W10_of_ne m ρ c main_v6 (by decide)).trans (w9_v6 m ρ c)

theorem w10_v31 : W10 m ρ c (Proc.devRef .tc main_v31) = val_main_v31 (F := Ideal) (m ((c.tc : Thread nD τ).loc main_arg1)) (m ((c.tc : Thread nD τ).loc main_arg2)) :=
  (W10_of_ne m ρ c main_v31 (by decide)).trans (w9_v31 m ρ c)

theorem w10_arg8 : W10 m ρ c (Proc.devRef .tc main_arg8) = (m ((c.tc : Thread nD τ).loc main_arg8)) :=
  (W10_of_ne m ρ c main_arg8 (by decide)).trans (w9_arg8 m ρ c)

set_option maxHeartbeats 2000000 in
/-- THE RESULT: after the last host stretch the result buffer holds the reference's function of the nine arguments. -/
theorem w11_v84 : W11 m ρ c (Proc.devRef .tc main_v84) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps3 (W10 m ρ c) (Proc.devRef .tc main_v84) = _
  after_results_simp
  rw [w10_v68, w10_v3, w10_v6, w10_v31, w10_arg8]
  rfl

end Cert.KernelIdeal.Walk

end
-- ==== Proof.lean ====
/-
  A three-layer graph convolution network on 100000 nodes and 1.6 million weighted edges, with self-loops and the
  symmetric normalisation `dinv[row]·w·dinv[col]` (`dinv = 1/√degree`, `0` at an empty degree): each layer projects
  the node features by a weight matrix, gathers the projected rows along the edges, scales them by the
  normalisation, sums them into their target nodes and adds a bias; a rectifier follows the first two layers.

  The kernel computes the three projections on the matrix unit, 4000 rows of nodes at a time, from operands
  narrowed to bf16 and into a zero f32 accumulator; the reference computes each projection as one whole
  `dot_general`. Everything else — edge lists, degrees, normalisation, gathers, scatter-adds, biases, rectifiers —
  is the same host operations, in the same order, in both programs. On extended reals the narrowing is the identity
  and a product's element `(r, c)` is `∑ k, A (r, k) · B (k, c)` either way, a sum that reads row `r` of `A` only; so the 25
  row blocks of a launch tile the whole product (Layer1, Layer2, Layer3 over LibPlainDot and Products), the
  kernel's result buffer read back through the program is the reference's function of the nine arguments
  (KernelValue over the run in KernelRun), and the two programs end with equal results. No property of the
  extended reals beyond the definition of the two products is used, so the precondition is never opened.
  The ideal pass rewrote nothing, so the idealization is the kernel's own text read on extended reals.
-/
import proofs.«143600_j81166291959925_1_alg».proof.Defs
import proofs.«143600_j81166291959925_1_alg».proof.Proof.Gen.Kernel
import proofs.«143600_j81166291959925_1_alg».proof.Proof.Gen.Kernel.Frame
import proofs.«143600_j81166291959925_1_alg».proof.Proof.Gen.KernelIdeal
import proofs.«143600_j81166291959925_1_alg».proof.Proof.Gen.KernelIdeal.Frame
import proofs.«143600_j81166291959925_1_alg».proof.Proof.Gen.ReferenceIdeal
import proofs.«143600_j81166291959925_1_alg».proof.Proof.Gen.ReferenceIdeal.Run
import proofs.«143600_j81166291959925_1_alg».proof.Proof.Gen.ReferenceIdeal.Read
import proofs.«143600_j81166291959925_1_alg».proof.Proof.Gen.Pre_finite_inputs
import proofs.«143600_j81166291959925_1_alg».proof.Proof.KernelRun
import proofs.«143600_j81166291959925_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the nine arguments both idealized programs run and end with the same result:
    the kernel's result buffer holds the reference's function of the arguments. -/
theorem algebraic : Cert.algebraic_KernelIdeal_ReferenceIdeal := by
  intro m ρ m' ρ' _ hagree
  refine ⟨fun c => Cert.KernelIdeal.Gen.W11 m ρ c (Proc.devRef .tc Cert.KernelIdeal.main_v84),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v84_eq, h0, h1, h2, h3, h4, h5, h6, h7, h8]
  exact (Cert.KernelIdeal.Walk.w11_v84 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
